-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel

variable [Facts]

def fn {F : FTy → Type} [FloatOps F] (main_arg0 : FVec F S4000000x3 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  main_v3
-- ==== Kernel.lean ====
abbrev S4000000x3 : Shape := ⟨2, ![4000000, 3]⟩
abbrev S4000000x9 : Shape := ⟨2, ![4000000, 9]⟩
abbrev S4000x3 : Shape := ⟨2, ![4000, 3]⟩
abbrev S4000x9 : Shape := ⟨2, ![4000, 9]⟩
abbrev S4000x1 : Shape := ⟨2, ![4000, 1]⟩
abbrev S4000000x3x3 : Shape := ⟨3, ![4000000, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S4000000x3, .f32⟩
  | .hbm, ⟨1, _⟩ => ⟨S4000000x9, .f32⟩
  | .hbm, ⟨2, _⟩ => ⟨S4000000x3x3, .f32⟩
  | .local _ .vmem, ⟨0, _⟩ => ⟨S4000x3, .f32⟩
  | .local _ .vmem, ⟨1, _⟩ => ⟨S4000x3, .f32⟩
  | .local _ .vmem, ⟨2, _⟩ => ⟨S4000x9, .f32⟩
  | .local _ .vmem, ⟨3, _⟩ => ⟨S4000x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4000x3_S4000x3_0_0 : ∀ a, (![0, 0] : Fin 2 → Nat) a + S4000x3.size a ≤ S4000x3.size a
  h_S4000x3 : 0 < S4000x3.numel
  slices_S4000x3_o0_0_S4000x1 : S4000x3.Slices ![0, 0] S4000x1
  slices_S4000x3_o0_1_S4000x1 : S4000x3.Slices ![0, 1] S4000x1
  slices_S4000x3_o0_2_S4000x1 : S4000x3.Slices ![0, 2] S4000x1
  concatenates_S4000x1_S4000x1_S4000x1_S4000x1_S4000x1_S4000x1_S4000x1_S4000x1_S4000x1_S4000x9_d1 : Shape.Concatenates [S4000x1, S4000x1, S4000x1, S4000x1, S4000x1, S4000x1, S4000x1, S4000x1, S4000x1] S4000x9 1
  inb_S4000x9_S4000x9_0_0 : ∀ a, (![0, 0] : Fin 2 → Nat) a + S4000x9.size a ≤ S4000x9.size a
  h_S4000x9 : 0 < S4000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S4000000x3.size a
  hwx0_0 : ∀ i : grid0.Coords, EltTy.bits .f32 = 32 ∨ (Rect.block (s := S4000000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x9.size a ≤ S4000000x9.size a
  hwx0_1 : ∀ i : grid0.Coords, EltTy.bits .f32 = 32 ∨ (Rect.block (s := S4000000x9) S4000x9.size (cc0_transform_1 i) (hinb0_1 i)).WholeWords (EltTy.packing .f32)

variable [Facts₀]

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x1x3 : Shape := ⟨3, ![4000000, 1, 3]⟩
abbrev S4000000x3x3 : Shape := ⟨3, ![4000000, 3, 3]⟩

abbrev nBuf : Space → Nat
  | .hbm => 77
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x1, .f32⟩
  | .hbm, ⟨2, _⟩ => ⟨S4000000, .f32⟩
  | .hbm, ⟨3, _⟩ => ⟨S4000000x1, .f32⟩
  | .hbm, ⟨4, _⟩ => ⟨S4000000, .f32⟩
  | .hbm, ⟨5, _⟩ => ⟨S4000000x1, .f32⟩
  | .hbm, ⟨6, _⟩ => ⟨S4000000, .f32⟩
  | .hbm, ⟨7, _⟩ => ⟨S4000000, .f32⟩
  | .hbm, ⟨8, _⟩ => ⟨S4000000, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S4000000, .f32⟩
  | .hbm, ⟨15, _⟩ => ⟨S_, .f32⟩
  | .hbm, ⟨16, _⟩ => ⟨S4000000, .f32⟩
  | .hbm, ⟨17, _⟩ => ⟨S4000000, .f32⟩
  | .hbm, ⟨18, _⟩ => ⟨S_, .f32⟩
  | .hbm, ⟨19, _⟩ => ⟨S4000000, .f32⟩
  | .hbm, ⟨20, _⟩ => ⟨S4000000, .f32⟩
  | .hbm, ⟨21, _⟩ => ⟨S4000000, .f32⟩
  | .hbm, ⟨22, _⟩ => ⟨S_, .f32⟩
  | .hbm, ⟨23, _⟩ => ⟨S4000000, .f32⟩
  | .hbm, ⟨24, _⟩ => ⟨S4000000, .f32⟩
  | .hbm, ⟨25, _⟩ => ⟨S_, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S_, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S_, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S4000000, .f32⟩
  | .hbm, ⟨57, _⟩ => ⟨S_, .f32⟩
  | .hbm, ⟨58, _⟩ => ⟨S4000000, .f32⟩
  | .hbm, ⟨59, _⟩ => ⟨S_, .f32⟩
  | .hbm, ⟨60, _⟩ => ⟨S4000000, .f32⟩
  | .hbm, ⟨61, _⟩ => ⟨S4000000x1, .f32⟩
  | .hbm, ⟨62, _⟩ => ⟨S4000000x1, .f32⟩
  | .hbm, ⟨63, _⟩ => ⟨S4000000x1, .f32⟩
  | .hbm, ⟨64, _⟩ => ⟨S4000000x3, .f32⟩
  | .hbm, ⟨65, _⟩ => ⟨S4000000x1, .f32⟩
  | .hbm, ⟨66, _⟩ => ⟨S4000000x1, .f32⟩
  | .hbm, ⟨67, _⟩ => ⟨S4000000x1, .f32⟩
  | .hbm, ⟨68, _⟩ => ⟨S4000000x3, .f32⟩
  | .hbm, ⟨69, _⟩ => ⟨S4000000x1, .f32⟩
  | .hbm, ⟨70, _⟩ => ⟨S4000000x1, .f32⟩
  | .hbm, ⟨71, _⟩ => ⟨S4000000x1, .f32⟩
  | .hbm, ⟨72, _⟩ => ⟨S4000000x3, .f32⟩
  | .hbm, ⟨73, _⟩ => ⟨S4000000x1x3, .f32⟩
  | .hbm, ⟨74, _⟩ => ⟨S4000000x1x3, .f32⟩
  | .hbm, ⟨75, _⟩ => ⟨S4000000x1x3, .f32⟩
  | .hbm, ⟨76, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_7 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_8 : Ref sig .tc := ⟨.hbm, 57, rfl⟩
abbrev main_v47 : Ref sig .tc := ⟨.hbm, 58, rfl⟩
abbrev main_cst_9 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]

class Facts₀ : Prop where
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1

variable [Facts₀]

class Facts : Prop extends Facts₀ where

variable [Facts]
-- ==== Proof.ExpMap.lean ====
/-
  The exponential map of planar rigid motions, row by row, on the extended reals.

  A row `(x, y, ω)` is a tangent vector of the group of planar rigid motions: a translation part `(x, y)` and an
  angular part `ω`. With `θ² = ω·ω`, `θ = √θ²` and a fixed small offset `ε`, put
      A = sin θ / (θ + ε),   B = (1 − cos θ) / (θ² + ε),   C = (1 − A) / (θ² + ε).
  The row's image is the 3×3 matrix
      ⎡ 1 − B θ²    −A ω       (1 − C θ²) x + (−B ω) y ⎤
      ⎢ A ω         1 − B θ²   (B ω) x + (1 − C θ²) y  ⎥
      ⎣ 0           0          1                        ⎦
  (a rotation block, a translation column, a unit corner). `entry x y ω k` is entry `k` of that matrix in row-major
  order, `k = 3·(matrix row) + (matrix column)`. Every operation is the exact one on the extended reals
  (`Ideal.sqrt`, `Ideal.sin`, `Ideal.cos`, `Ideal.div`), so the definition makes sense at the infinities too and no
  finiteness is used anywhere below.

  Two layouts of all the rows' images: `flat`, an array [rows, 9] holding each matrix as nine consecutive numbers, and
  `stacked`, an array [rows, 3, 3]. They hold the same numbers: entry `(b, i, j)` of the second is entry `(b, 3i + j)` of
  the first.
-/
import Idealize.ShloMosaic.PureOps.Ideal
import Idealize.ShloMosaic.PureOps.Ideal.Laws
import Idealize.ShloMosaic.Lib.ValueIdx

noncomputable section

namespace Cert.ExpMap

open Idealize.ShloMosaic Idealize.ShloMosaic.ValueIdx

/-- The offset `ε` under both quotients (the binary value of its 32-bit pattern). -/
def eps : EReal := Ideal.ofBits .f32 0x3727C5AC#32
/-- The constant one, as its pattern. -/
def one : EReal := Ideal.ofBits .f32 0x3F800000#32
/-- The constant zero, as its pattern. -/
def zero : EReal := Ideal.ofBits .f32 0x00000000#32

/-- `θ = √(ω·ω)`. -/
def angle (w : EReal) : EReal := Ideal.sqrt (w * w)
/-- `A = sin θ / (θ + ε)`. -/
def coefA (w : EReal) : EReal := Ideal.div (Ideal.sin (angle w)) (angle w + eps)
/-- `B = (1 − cos θ) / (θ² + ε)`. -/
def coefB (w : EReal) : EReal := Ideal.div (one - Ideal.cos (angle w)) (w * w + eps)
/-- `C = (1 − A) / (θ² + ε)`. -/
def coefC (w : EReal) : EReal := Ideal.div (one - coefA w) (w * w + eps)
/-- The diagonal of the rotation block, `1 − B θ²`. -/
def rotDiag (w : EReal) : EReal := one - coefB w * (w * w)
/-- The diagonal of the matrix applied to the translation part, `1 − C θ²`. -/
def linDiag (w : EReal) : EReal := one - coefC w * (w * w)

/-- Entry `k` (row-major, `k < 9`) of the image of the row `(x, y, ω)`. -/
def entry (x y w : EReal) : ℕ → EReal
  | 0 => rotDiag w
  | 1 => (-(coefA w)) * w
  | 2 => linDiag w * x + ((-(coefB w)) * w) * y
  | 3 => coefA w * w
  | 4 => rotDiag w
  | 5 => (coefB w * w) * x + linDiag w * y
  | 6 => zero
  | 7 => zero
  | 8 => one
  | _ => zero

/-- The same entries with each negation written as a subtraction from zero. -/
def entrySub (x y w : EReal) : ℕ → EReal
  | 0 => rotDiag w
  | 1 => (zero - coefA w) * w
  | 2 => linDiag w * x + ((zero - coefB w) * w) * y
  | 3 => coefA w * w
  | 4 => rotDiag w
  | 5 => (coefB w * w) * x + linDiag w * y
  | 6 => zero
  | 7 => zero
  | 8 => one
  | _ => zero

/-- On the extended reals `0 − a = −a` for every `a`, the infinities included. -/
theorem zero_sub_eq_neg (a : EReal) : zero - a = -a := by
  unfold zero
  rw [Ideal.ofBits_zero_f32, zero_sub]

/-- So the two spellings of the entries agree. -/
theorem entrySub_eq (x y w : EReal) (k : ℕ) : entrySub x y w k = entry x y w k := by
  unfold entrySub entry
  simp only [zero_sub_eq_neg]

/-- The rows: an array [4000000, 3]. -/
abbrev Rows : Shape := ⟨2, ![4000000, 3]⟩
/-- Their images, nine numbers a row: [4000000, 9]. -/
abbrev Flat : Shape := ⟨2, ![4000000, 9]⟩
/-- Their images as matrices: [4000000, 3, 3]. -/
abbrev Stacked : Shape := ⟨3, ![4000000, 3, 3]⟩

/-- Every row's image, nine consecutive numbers a row. -/
def flat (uv : Rows.Idx → EReal) : Flat.Idx → EReal := fun i =>
  entry (uv (ix2 (i 0 : Fin 4000000) (0 : Fin 3))) (uv (ix2 (i 0 : Fin 4000000) (1 : Fin 3))) (uv (ix2 (i 0 : Fin 4000000) (2 : Fin 3)))
    (i 1 : Fin 9).val

/-- Every row's image as a 3×3 matrix. -/
def stacked (uv : Rows.Idx → EReal) : Stacked.Idx → EReal := fun i =>
  entry (uv (ix2 (i 0 : Fin 4000000) (0 : Fin 3))) (uv (ix2 (i 0 : Fin 4000000) (1 : Fin 3))) (uv (ix2 (i 0 : Fin 4000000) (2 : Fin 3)))
    (3 * (i 1 : Fin 3).val + (i 2 : Fin 3).val)

theorem flat_apply (uv : Rows.Idx → EReal) (b : Fin 4000000) (k : Fin 9) :
    flat uv (ix2 b k) = entry (uv (ix2 b 0)) (uv (ix2 b 1)) (uv (ix2 b 2)) k.val := rfl

theorem stacked_apply (uv : Rows.Idx → EReal) (b : Fin 4000000) (i j : Fin 3) :
    stacked uv (ix3 b i j) = entry (uv (ix2 b 0)) (uv (ix2 b 1)) (uv (ix2 b 2)) (3 * i.val + j.val) := rfl

end Cert.ExpMap

end
-- ==== Proof.LibJoinUnit.lean ====
/-
  A join of unit-wide pieces along the middle axis, read at an entry.

  `concatenate` along axis 1 of pieces whose extent on that axis is one: of single columns `[a, 1]` into `[a, n]`, and
  of single slabs `[a, 1, c]` into `[a, n, c]`. Since every piece before the `k`-th is one wide, the pieces before
  it span exactly `k` positions; so the join read at position `q = k` of the joined axis is the `k`-th piece read at
  position 0 of that axis, the other coordinates unchanged. The lists are arbitrary (pieces need not share a shape):
  what is asked is the `k`-th piece's shape and that the earlier extents add up to `k` (`hpre`, which computes for a
  literal list). Over literal-free extents `a`, `n`, `c`; importing only the library.
-/
import Idealize.ShloMosaic.Lib.Pipeline.Value
import Idealize.ShloMosaic.Lib.ValueIdx

noncomputable section

namespace Cert.JoinUnit

open Idealize.ShloMosaic Idealize.ShloMosaic.ValueIdx

/-- A join along the column axis read at `(p, q)`, when its `k`-th piece is a single column `[a, 1]` and the earlier
    pieces span `k` columns: that column at row `p`. -/
theorem columns_apply {α : Type} {a n : Nat} (xs : List ((s : Shape) × (s.Idx → α)))
    (h : Shape.Concatenates (xs.map (·.1)) ⟨2, ![a, n]⟩ 1) (p : Fin a) (q : Fin n)
    (k : Nat) (hk : k < xs.length) (x₁ : (⟨2, ![a, 1]⟩ : Shape).Idx → α) (hxk : xs[k] = ⟨⟨2, ![a, 1]⟩, x₁⟩)
    (hpre : (((xs.take k).map (·.1)).map fun s => if h : s.rank = (⟨2, ![a, n]⟩ : Shape).rank then s.size ((1 : Fin 2).cast h.symm) else 0).sum = k)
    (hq : q.val = k) :
    concatenate ⟨2, ![a, n]⟩ 1 xs h (ix2 p q) = x₁ (ix2 p 0) :=
  concatenate_apply_piece (1 : Fin 2) xs h (ix2 p q) k hk _ x₁ hxk rfl k hpre (ix2 p 0)
    (fun b hb => by
      match b with
      | ⟨0, _⟩ => rfl
      | ⟨1, _⟩ => exact absurd rfl hb)
    (by show k + 0 = q.val; omega)

/-- A join along the middle axis read at `(p, q, r)`, when its `k`-th piece is a single slab `[a, 1, c]` and the
    earlier pieces span `k` positions: that slab at `(p, 0, r)`. -/
theorem slabs_apply {α : Type} {a n c : Nat} (xs : List ((s : Shape) × (s.Idx → α)))
    (h : Shape.Concatenates (xs.map (·.1)) ⟨3, ![a, n, c]⟩ 1) (p : Fin a) (q : Fin n) (r : Fin c)
    (k : Nat) (hk : k < xs.length) (x₁ : (⟨3, ![a, 1, c]⟩ : Shape).Idx → α) (hxk : xs[k] = ⟨⟨3, ![a, 1, c]⟩, x₁⟩)
    (hpre : (((xs.take k).map (·.1)).map fun s => if h : s.rank = (⟨3, ![a, n, c]⟩ : Shape).rank then s.size ((1 : Fin 3).cast h.symm) else 0).sum = k)
    (hq : q.val = k) :
    concatenate ⟨3, ![a, n, c]⟩ 1 xs h (ix3 p q r) = x₁ (ix3 p 0 r) :=
  concatenate_apply_piece (1 : Fin 3) xs h (ix3 p q r) k hk _ x₁ hxk rfl k hpre (ix3 p 0 r)
    (fun b hb => by
      match b with
      | ⟨0, _⟩ => rfl
      | ⟨1, _⟩ => exact absurd rfl hb
      | ⟨2, _⟩ => rfl)
    (by show k + 0 = q.val; omega)

end Cert.JoinUnit

end
-- ==== Proof.KernelRow.lean ====
/-
  One block of the kernel, read at an entry.

  The kernel body loads a block of 4000 rows `(x, y, ω)`, cuts it into its three columns, computes nine columns from
  them with pointwise operations and joins the nine side by side into a [4000, 9] block. Read at `(p, q)`, the join is
  its `q`-th column at row `p`; each column at row `p` is, operation for operation, entry `q` of the image of row `p`
  under the exponential map (`Cert.ExpMap.entrySub`: the body negates by subtracting from zero), and a column of the
  block at row `p` is the block at `(p, column)`.
-/
import proofs.«178806_j37065567764675_2_alg».proof.Proof.Gen.KernelIdeal.Skeleton
import proofs.«178806_j37065567764675_2_alg».proof.Proof.ExpMap
import proofs.«178806_j37065567764675_2_alg».proof.Proof.LibJoinUnit
import Idealize.ShloMosaic.Lib.Pipeline.Value
import Idealize.ShloMosaic.Lib.ValueIdx

noncomputable section

namespace Cert.KernelIdeal.Row

open Cert.KernelIdeal Cert.KernelIdeal.Gen
open Idealize.ShloMosaic Idealize.ShloMosaic.ValueIdx Cert.ExpMap

/-- Column `j` of a block at row `p` is the block at `(p, j)`. -/
theorem column0_apply (x0 : Vec Ideal S4000x3 .f32) (p : Fin 4000) :
    extractStridedSlice S4000x1 ![0, 0] x0 slices_S4000x3_o0_0_S4000x1 (ix2 p 0) = x0 (ix2 p 0) :=
  extractStridedSlice_apply ![0, 0] x0 slices_S4000x3_o0_0_S4000x1 (ix2 p 0) (ix2 p 0) fun a => by
    match a with
    | ⟨0, _⟩ => show p.val = 0 + p.val; omega
    | ⟨1, _⟩ => rfl

theorem column1_apply (x0 : Vec Ideal S4000x3 .f32) (p : Fin 4000) :
    extractStridedSlice S4000x1 ![0, 1] x0 slices_S4000x3_o0_1_S4000x1 (ix2 p 0) = x0 (ix2 p 1) :=
  extractStridedSlice_apply ![0, 1] x0 slices_S4000x3_o0_1_S4000x1 (ix2 p 0) (ix2 p 1) fun a => by
    match a with
    | ⟨0, _⟩ => show p.val = 0 + p.val; omega
    | ⟨1, _⟩ => rfl

theorem column2_apply (x0 : Vec Ideal S4000x3 .f32) (p : Fin 4000) :
    extractStridedSlice S4000x1 ![0, 2] x0 slices_S4000x3_o0_2_S4000x1 (ix2 p 0) = x0 (ix2 p 2) :=
  extractStridedSlice_apply ![0, 2] x0 slices_S4000x3_o0_2_S4000x1 (ix2 p 0) (ix2 p 2) fun a => by
    match a with
    | ⟨0, _⟩ => show p.val = 0 + p.val; omega
    | ⟨1, _⟩ => rfl

/-- The body's block at `(p, q)` is entry `q` of the image of the three columns' entries at row `p`: the `q`-th
    piece of the join, whose operations are the entry's, one for one. -/
theorem payload_columns (x0 : Vec Ideal S4000x3 .f32) (p : Fin 4000) (q : Fin 9) :
    k0_pay1 (F := Ideal) x0 (ix2 p q)
      = entrySub (extractStridedSlice S4000x1 ![0, 0] x0 slices_S4000x3_o0_0_S4000x1 (ix2 p 0))
          (extractStridedSlice S4000x1 ![0, 1] x0 slices_S4000x3_o0_1_S4000x1 (ix2 p 0))
          (extractStridedSlice S4000x1 ![0, 2] x0 slices_S4000x3_o0_2_S4000x1 (ix2 p 0)) q.val := by
  unfold k0_pay1
  obtain ⟨k, hk⟩ := q
  interval_cases k
  · exact (Cert.JoinUnit.columns_apply _ _ p _ 0 (by show (0 : ℕ) < 9; omega) _ rfl rfl rfl).trans rfl
  · exact (Cert.JoinUnit.columns_apply _ _ p _ 1 (by show (1 : ℕ) < 9; omega) _ rfl rfl rfl).trans rfl
  · exact (Cert.JoinUnit.columns_apply _ _ p _ 2 (by show (2 : ℕ) < 9; omega) _ rfl rfl rfl).trans rfl
  · exact (Cert.JoinUnit.columns_apply _ _ p _ 3 (by show (3 : ℕ) < 9; omega) _ rfl rfl rfl).trans rfl
  · exact (Cert.JoinUnit.columns_apply _ _ p _ 4 (by show (4 : ℕ) < 9; omega) _ rfl rfl rfl).trans rfl
  · exact (Cert.JoinUnit.columns_apply _ _ p _ 5 (by show (5 : ℕ) < 9; omega) _ rfl rfl rfl).trans rfl
  · exact (Cert.JoinUnit.columns_apply _ _ p _ 6 (by show (6 : ℕ) < 9; omega) _ rfl rfl rfl).trans rfl
  · exact (Cert.JoinUnit.columns_apply _ _ p _ 7 (by show (7 : ℕ) < 9; omega) _ rfl rfl rfl).trans rfl
  · exact (Cert.JoinUnit.columns_apply _ _ p _ 8 (by show (8 : ℕ) < 9; omega) _ rfl rfl rfl).trans rfl

/-- The body's block at an entry: entry `(y 1)` of the image of row `(y 0)` of the loaded block. -/
theorem payload_apply (x0 : Vec Ideal S4000x3 .f32) (y : S4000x9.Idx) :
    k0_pay1 (F := Ideal) x0 y
      = entry (x0 (ix2 (y 0 : Fin 4000) (0 : Fin 3))) (x0 (ix2 (y 0 : Fin 4000) (1 : Fin 3))) (x0 (ix2 (y 0 : Fin 4000) (2 : Fin 3)))
          (y 1 : Fin 9).val := by
  obtain ⟨p, q, rfl⟩ : ∃ (p : Fin 4000) (q : Fin 9), y = ix2 p q := ⟨y 0, y 1, eq_ix2 y⟩
  rw [payload_columns, column0_apply, column1_apply, column2_apply, entrySub_eq]

end Cert.KernelIdeal.Row

end
-- ==== Proof.KernelWhole.lean ====
/-
  From the kernel's blocks to its result.

  Grid point `t` (of 1000) works on rows `4000 t … 4000 t + 3999`: its input block is those rows of the rows array,
  and what it writes back is those rows of the flat array of images (`Cert.ExpMap.flat`), because the body's block at
  `(p, q)` is entry `q` of the image of the block's row `p` (the kernel's row module), which is row `4000 t + p` of the
  array. Every row lies in exactly the block of the point `row / 4000`, so after the last point the [4000000, 9] array
  is `flat` of the rows array. The host then reshapes it to [4000000, 3, 3], and the entry `(b, i, j)` of a reshape is
  the entry of equal row-major position, `(b, 3i + j)`: the result is `Cert.ExpMap.stacked` of the rows array.
-/
import proofs.«178806_j37065567764675_2_alg».proof.Proof.Gen.KernelIdeal.Frame
import proofs.«178806_j37065567764675_2_alg».proof.Proof.KernelRow
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Cert.ExpMap
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Both windows' block numbers at a point: the point's number along the rows, 0 along the columns. -/
theorem block_numbers : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Equal arguments, equal entries. -/
theorem entry_congr {x x' y y' w w' : EReal} {k k' : ℕ} (hx : x = x') (hy : y = y') (hw : w = w') (hk : k = k') :
    entry x y w k = entry x' y' w' k' := by subst hx hy hw hk; rfl

/-- Row `r` of point `t`'s input block is row `4000 t + r` of the rows array. -/
theorem input_block_apply (c : Dev nD) (t : Fin cfg0.N) (y : S4000x3.Idx) (k : S4000000x3.Idx)
    (hk0 : (k 0).val = 4000 * t.val + (y 0).val) (hk1 : (k 1).val = (y 1).val) :
    (iblk m c 0 t : Vec Ideal S4000x3 .f32) y = (V m c main_arg0 : S4000000x3.Idx → Elt Ideal .f32) k := by
  obtain ⟨e0, e1, -, -⟩ := block_numbers t
  unfold iblk
  rw [View.read_apply]
  show V m c main_arg0 _ = V m c main_arg0 _
  congr 1
  funext a
  apply Fin.ext
  match a with
  | ⟨0, _⟩ => show win0_0.index t (0 : Fin 2) * 4000 + 1 * (y 0).val = (k 0).val; rw [e0, hk0]; omega
  | ⟨1, _⟩ => show win0_0.index t (1 : Fin 2) * 3 + 1 * (y 1).val = (k 1).val; rw [e1, hk1]; omega

/-- What point `t` writes back is block `t` of the flat array of images of the rows array. -/
theorem flushed_eq (c : Dev nD) (t : Fin cfg0.N) :
    (dats m 0 c).flushed 1 t = ((cfg0.win 1).blk t).view.read (Elt Ideal) (flat (V m c main_arg0)) := by
  show (cfg0.win 1).cut (grid0.coords t) ((dats m 0 c).after 1 t) = _
  rw [after0_1]
  unfold out0_1
  rw [View.canon_unit_zero zero_offsets]
  simp only [View.ld_unit_zero (S := S4000x3) zero_offsets]
  obtain ⟨-, -, e2, e3⟩ := block_numbers t
  funext j
  show k0_pay1 (F := Ideal) (iblk m c 0 t) j = flat (V m c main_arg0) (((cfg0.win 1).blk t).view.emb j)
  refine (Row.payload_apply (iblk m c 0 t) j).trans ?_
  have h0 : ((((cfg0.win 1).blk t).view.emb j) 0).val = 4000 * t.val + (j 0).val := by
    show win0_1.index t (0 : Fin 2) * 4000 + 1 * (j 0).val = _; rw [e2]; omega
  have h1 : ((((cfg0.win 1).blk t).view.emb j) 1).val = (j 1).val := by
    show win0_1.index t (1 : Fin 2) * 9 + 1 * (j 1).val = _; rw [e3]; omega
  exact entry_congr (input_block_apply m c t _ _ h0 rfl) (input_block_apply m c t _ _ h0 rfl)
    (input_block_apply m c t _ _ h0 rfl) h1.symm

/-- An index of the flat array is in point `t`'s block iff each coordinate is in the block's range. -/
theorem mem_block (t : Fin cfg0.N) (i : S4000000x9.Idx) :
    i ∈ ((cfg0.win 1).blk t).view.set ↔ ∀ a : Fin 2, win0_1.index t a * S4000x9.size a ≤ (i a).val ∧ (i a).val < win0_1.index t a * S4000x9.size a + S4000x9.size a := by
  show i ∈ ((View.whole main_v0).slice (win0_1.rect t)).set ↔ _
  rw [View.set_slice_whole, Rect.mem_set_unit]
  exact Iff.rfl

/-- Every index of the flat array is in the block of the point `row / 4000`. -/
theorem covered (i : S4000000x9.Idx) :
    ∃ t : Fin cfg0.N, (cfg0.win 1).flush t = true ∧ i ∈ ((cfg0.win 1).blk t).view.set := by
  have hi0 : (i 0).val < 4000000 := (i 0).isLt
  have hi1 : (i 1).val < 9 := (i 1).isLt
  have hN : cfg0.N = 1000 := N_0
  have ht : (i 0).val / 4000 < cfg0.N := by omega
  obtain ⟨-, -, e2, e3⟩ := block_numbers ⟨(i 0).val / 4000, ht⟩
  refine ⟨⟨(i 0).val / 4000, ht⟩, flush0_1 _, ?_⟩
  rw [mem_block]
  intro a
  match a with
  | ⟨0, _⟩ =>
    show win0_1.index ⟨(i 0).val / 4000, ht⟩ (0 : Fin 2) * 4000 ≤ (i 0).val ∧ (i 0).val < win0_1.index ⟨(i 0).val / 4000, ht⟩ (0 : Fin 2) * 4000 + 4000
    rw [e2]; show (i 0).val / 4000 * 4000 ≤ (i 0).val ∧ (i 0).val < (i 0).val / 4000 * 4000 + 4000; omega
  | ⟨1, _⟩ =>
    show win0_1.index ⟨(i 0).val / 4000, ht⟩ (1 : Fin 2) * 9 ≤ (i 1).val ∧ (i 1).val < win0_1.index ⟨(i 0).val / 4000, ht⟩ (1 : Fin 2) * 9 + 9
    rw [e3]; omega

/-- After the last point the [4000000, 9] array holds every row's image, nine numbers a row. -/
theorem flat_array (c : Dev nD) : (dats m 0 c).arrAt 1 cfg0.N = flat (V m c main_arg0) :=
  (dats m 0 c).arrAt_eq_of_cover 1 (flat (V m c main_arg0)) (fun t _ => flushed_eq m c t) covered

/-- Reshaping the flat array to [4000000, 3, 3] gives the matrices: equal row-major positions,
    `9 b + (3 i + j) = 3 (3 b + i) + j`. -/
theorem reshape_flat (uv : Rows.Idx → EReal) (h : Flat.ShapeCasts Stacked) : shapeCast Stacked (flat uv) h = stacked uv := by
  funext i
  obtain ⟨b, r, j, rfl⟩ : ∃ (b : Fin 4000000) (r j : Fin 3), i = ix3 b r j := ⟨i 0, i 1, i 2, eq_ix3 i⟩
  rw [stacked_apply]
  have hr : r.val < 3 := r.isLt
  have hj : j.val < 3 := j.isLt
  have hk : 3 * r.val + j.val < 9 := by omega
  refine (shapeCast_apply (flat uv) h (ix3 b r j) (ix2 b ⟨3 * r.val + j.val, hk⟩) ?_).trans (flat_apply uv b _)
  rw [Shape.rowMajor_val_two, Shape.rowMajor_val_three]
  show b.val * 9 + (3 * r.val + j.val) = (b.val * 3 + r.val) * 3 + j.val
  omega

/-- The host's reshape after the region reads the region's output array. -/
theorem tail_eq (c : Dev nD) :
    Pipeline.afterTail₀ cfgs (dats m) 0 (V0 m) [hostOps1] c main_v1
      = shapeCast S4000000x3x3 ((dats m 0 c).arrAt 1 cfg0.N) shapeCasts_S4000000x9_S4000000x3x3 := by
  unfold Pipeline.afterTail₀
  show StableHlo.after hostOps1 _ (Proc.devRef .tc main_v1) = _
  after_results
  exact congrArg (fun A : S4000000x9.Idx → Elt Ideal .f32 => shapeCast S4000000x3x3 A shapeCasts_S4000000x9_S4000000x3x3)
    (Pipeline.withArrays_arr spec0 launch0.win.arr_inj c (V0 m c) (fun w => (dats m 0 c).arrAt w (cfgs 0).N) 1)

/-- The result buffer after the run: every row's image as a 3×3 matrix. -/
theorem result_eq (c : Dev nD) :
    Pipeline.afterTail₀ cfgs (dats m) 0 (V0 m) [hostOps1] c main_v1 = stacked (m ((c.tc : Thread nD τ).loc main_arg0)) := by
  rw [tail_eq, flat_array, V_main_arg0]
  exact reshape_flat _ _

/-- The result buffer is no array of the region: it is among the buffers the host's lines after the region leave. -/
theorem result_mem : main_v1 ∈ Pipeline.restRefs sig (cfgs 0).spec :=
  Pipeline.mem_restRefs_of main_v1 rfl (fun w => by fin_cases w <;> decide)

/-- The kernel's run, read: every weakly fair execution ends with the result at the matrices of the rows array, and the
    rows array unchanged. -/
theorem run : θ_run defs (onTc (τ := τ) (main (F := Ideal))) ⟨m, fun _ => 0, ρ⟩ fun r => ∀ c : Dev nD,
      r.2.mem ((c.tc : Thread nD τ).loc main_v1) = stacked (m ((c.tc : Thread nD τ).loc main_arg0))
      ∧ r.2.mem ((c.tc : Thread nD τ).loc main_arg0) = m ((c.tc : Thread nD τ).loc main_arg0) :=
  (θ_run defs _ _).mono (fun r h c => ⟨((h c).2 main_v1 result_mem).trans (result_eq m c),
      ((h c).1 0).trans (((dats m 0 c).arrAt_in 0 rfl _).trans ((A_eq m c 0).trans (V_main_arg0 m c)))⟩)
    (run_main m ρ)

end Cert.KernelIdeal.Whole

end
-- ==== Proof.ReferenceRow.lean ====
/-
  The reference, read at an entry.

  The reference cuts the rows array into its three coordinate vectors `x`, `y`, `ω` (each of length 4000000), computes
  nine vectors from them with pointwise operations, lays each out as a single column, joins the columns three by three
  into the three matrix rows `[4000000, 3]`, lays each of those out as a slab `[4000000, 1, 3]` and joins the three
  slabs into `[4000000, 3, 3]`. Read at `(b, i, j)`: the `i`-th slab at `(b, 0, j)`, which is the `i`-th matrix row at
  `(b, j)`, which is its `j`-th column at `(b, 0)`, which is the `(3i + j)`-th of the nine vectors at `b`; and that
  vector at `b` is, operation for operation, entry `3i + j` of the image of row `b` under the exponential map
  (`Cert.ExpMap.entry`), the coordinate vectors at `b` being the rows array at `(b, 0)`, `(b, 1)`, `(b, 2)`.
-/
import proofs.«178806_j37065567764675_2_alg».proof.Proof.Gen.ReferenceIdeal.Read
import proofs.«178806_j37065567764675_2_alg».proof.Proof.ExpMap
import proofs.«178806_j37065567764675_2_alg».proof.Proof.LibJoinUnit
import Idealize.ShloMosaic.Lib.Pipeline.Value
import Idealize.ShloMosaic.Lib.ValueIdx

noncomputable section

namespace Cert.ReferenceIdeal.Row

open Cert.ReferenceIdeal Cert.ReferenceIdeal.Gen Cert.ReferenceIdeal.Read
open Idealize.ShloMosaic Idealize.ShloMosaic.ValueIdx Cert.ExpMap

/-- The rows array, as the reference's operations take it. -/
abbrev Arg : Type := (⟨S4000000x3, .f32⟩ : BufTy).Contents (Elt Ideal)

/-! ## The coordinate vectors -/

/-- The first coordinates: the slice of column 0, flattened. -/
theorem xs_apply (x0 : Arg) (b : Fin 4000000) : val_main_v1 (F := Ideal) x0 (ix1 b) = x0 (ix2 b 0) := by
  rw [val_main_v1_apply, val_main_v0_apply]
  exact congrArg x0 (funext fun a => Fin.ext (by
    match a with
    | ⟨0, _⟩ => show b.val / 1 = b.val; omega
    | ⟨1, _⟩ => rfl))

/-- The second coordinates. -/
theorem ys_apply (x0 : Arg) (b : Fin 4000000) : val_main_v3 (F := Ideal) x0 (ix1 b) = x0 (ix2 b 1) := by
  rw [val_main_v3_apply, val_main_v2_apply]
  exact congrArg x0 (funext fun a => Fin.ext (by
    match a with
    | ⟨0, _⟩ => show b.val / 1 = b.val; omega
    | ⟨1, _⟩ => rfl))

/-- The angular parts. -/
theorem ws_apply (x0 : Arg) (b : Fin 4000000) : val_main_v5 (F := Ideal) x0 (ix1 b) = x0 (ix2 b 2) := by
  rw [val_main_v5_apply, val_main_v4_apply]
  exact congrArg x0 (funext fun a => Fin.ext (by
    match a with
    | ⟨0, _⟩ => show b.val / 1 = b.val; omega
    | ⟨1, _⟩ => rfl))

/-! ## The nine vectors at a row: the nine entries, operation for operation -/

theorem vec0_apply (x0 : Arg) (b : Fin 4000000) :
    val_main_v25 (F := Ideal) x0 (ix1 b) = entry (x0 (ix2 b 0)) (x0 (ix2 b 1)) (x0 (ix2 b 2)) 0 := by
  rw [← xs_apply x0 b, ← ys_apply x0 b, ← ws_apply x0 b]; rfl

theorem vec1_apply (x0 : Arg) (b : Fin 4000000) :
    val_main_v27 (F := Ideal) x0 (ix1 b) = entry (x0 (ix2 b 0)) (x0 (ix2 b 1)) (x0 (ix2 b 2)) 1 := by
  rw [← xs_apply x0 b, ← ys_apply x0 b, ← ws_apply x0 b]; rfl

theorem vec2_apply (x0 : Arg) (b : Fin 4000000) :
    val_main_v43 (F := Ideal) x0 (ix1 b) = entry (x0 (ix2 b 0)) (x0 (ix2 b 1)) (x0 (ix2 b 2)) 2 := by
  rw [← xs_apply x0 b, ← ys_apply x0 b, ← ws_apply x0 b]; rfl

theorem vec3_apply (x0 : Arg) (b : Fin 4000000) :
    val_main_v28 (F := Ideal) x0 (ix1 b) = entry (x0 (ix2 b 0)) (x0 (ix2 b 1)) (x0 (ix2 b 2)) 3 := by
  rw [← xs_apply x0 b, ← ys_apply x0 b, ← ws_apply x0 b]; rfl

theorem vec4_apply (x0 : Arg) (b : Fin 4000000) :
    val_main_v31 (F := Ideal) x0 (ix1 b) = entry (x0 (ix2 b 0)) (x0 (ix2 b 1)) (x0 (ix2 b 2)) 4 := by
  rw [← xs_apply x0 b, ← ys_apply x0 b, ← ws_apply x0 b]; rfl

theorem vec5_apply (x0 : Arg) (b : Fin 4000000) :
    val_main_v46 (F := Ideal) x0 (ix1 b) = entry (x0 (ix2 b 0)) (x0 (ix2 b 1)) (x0 (ix2 b 2)) 5 := by
  rw [← xs_apply x0 b, ← ys_apply x0 b, ← ws_apply x0 b]; rfl

/-- The vector of zeros and the vector of ones: entries 6, 7 and 8, whatever the row. -/
theorem zeros_apply (x y w : EReal) (b : Fin 4000000) (k : ℕ) (hk : k = 6 ∨ k = 7) :
    val_main_v47 (F := Ideal) (ix1 b) = entry x y w k := by
  rcases hk with rfl | rfl <;> rfl

theorem ones_apply (x y w : EReal) (b : Fin 4000000) :
    val_main_v48 (F := Ideal) (ix1 b) = entry x y w 8 := rfl

/-! ## The layouts -/

/-- A vector laid out as a single column, at `(b, 0)`. -/
theorem column_apply (v : S4000000.Idx → EReal) (b : Fin 4000000) :
    broadcastInDim S4000000x1 ![0] bcast_S4000000_S4000000x1_0 v (ix2 b 0) = v (ix1 b) :=
  broadcastInDim_apply _ bcast_S4000000_S4000000x1_0 v (ix2 b 0) (ix1 b) (fun a => match a with
    | ⟨0, _⟩ => by show b.val = if (4000000 : Nat) = 1 then 0 else b.val; rw [if_neg (by decide)])

/-- A matrix row `[4000000, 3]` laid out as a slab `[4000000, 1, 3]`, at `(b, 0, j)`. -/
theorem slab_apply (v : S4000000x3.Idx → EReal) (b : Fin 4000000) (j : Fin 3) :
    broadcastInDim S4000000x1x3 ![0, 2] bcast_S4000000x3_S4000000x1x3_0_2 v (ix3 b 0 j) = v (ix2 b j) :=
  broadcastInDim_apply _ bcast_S4000000x3_S4000000x1x3_0_2 v (ix3 b 0 j) (ix2 b j) (fun a => match a with
    | ⟨0, _⟩ => by show b.val = if (4000000 : Nat) = 1 then 0 else b.val; rw [if_neg (by decide)]
    | ⟨1, _⟩ => by show j.val = if (3 : Nat) = 1 then 0 else j.val; rw [if_neg (by decide)])

/-! ## The three matrix rows -/

/-- The top matrix row at `(b, j)`: entry `j`. -/
theorem top_apply (x0 : Arg) (b : Fin 4000000) (j : Fin 3) :
    val_main_v52 (F := Ideal) x0 (ix2 b j) = entry (x0 (ix2 b 0)) (x0 (ix2 b 1)) (x0 (ix2 b 2)) j.val := by
  unfold val_main_v52
  obtain ⟨k, hk⟩ := j
  interval_cases k
  · exact (Cert.JoinUnit.columns_apply _ _ b _ 0 (by show (0 : ℕ) < 3; omega) _ rfl rfl rfl).trans ((column_apply _ b).trans (vec0_apply x0 b))
  · exact (Cert.JoinUnit.columns_apply _ _ b _ 1 (by show (1 : ℕ) < 3; omega) _ rfl rfl rfl).trans ((column_apply _ b).trans (vec1_apply x0 b))
  · exact (Cert.JoinUnit.columns_apply _ _ b _ 2 (by show (2 : ℕ) < 3; omega) _ rfl rfl rfl).trans ((column_apply _ b).trans (vec2_apply x0 b))

/-- The middle matrix row at `(b, j)`: entry `3 + j`. -/
theorem middle_apply (x0 : Arg) (b : Fin 4000000) (j : Fin 3) :
    val_main_v56 (F := Ideal) x0 (ix2 b j) = entry (x0 (ix2 b 0)) (x0 (ix2 b 1)) (x0 (ix2 b 2)) (3 + j.val) := by
  unfold val_main_v56
  obtain ⟨k, hk⟩ := j
  interval_cases k
  · exact (Cert.JoinUnit.columns_apply _ _ b _ 0 (by show (0 : ℕ) < 3; omega) _ rfl rfl rfl).trans ((column_apply _ b).trans (vec3_apply x0 b))
  · exact (Cert.JoinUnit.columns_apply _ _ b _ 1 (by show (1 : ℕ) < 3; omega) _ rfl rfl rfl).trans ((column_apply _ b).trans (vec4_apply x0 b))
  · exact (Cert.JoinUnit.columns_apply _ _ b _ 2 (by show (2 : ℕ) < 3; omega) _ rfl rfl rfl).trans ((column_apply _ b).trans (vec5_apply x0 b))

/-- The bottom matrix row at `(b, j)`: entry `6 + j`, which no row enters. -/
theorem bottom_apply (x y w : EReal) (b : Fin 4000000) (j : Fin 3) :
    val_main_v60 (F := Ideal) (ix2 b j) = entry x y w (6 + j.val) := by
  unfold val_main_v60
  obtain ⟨k, hk⟩ := j
  interval_cases k
  · exact (Cert.JoinUnit.columns_apply _ _ b _ 0 (by show (0 : ℕ) < 3; omega) _ rfl rfl rfl).trans ((column_apply _ b).trans (zeros_apply x y w b 6 (.inl rfl)))
  · exact (Cert.JoinUnit.columns_apply _ _ b _ 1 (by show (1 : ℕ) < 3; omega) _ rfl rfl rfl).trans ((column_apply _ b).trans (zeros_apply x y w b 7 (.inr rfl)))
  · exact (Cert.JoinUnit.columns_apply _ _ b _ 2 (by show (2 : ℕ) < 3; omega) _ rfl rfl rfl).trans ((column_apply _ b).trans (ones_apply x y w b))

/-! ## The result -/

/-- The reference's result is every row's image as a 3×3 matrix. -/
theorem result_eq (x0 : Arg) : val_main_v64 (F := Ideal) x0 = stacked x0 := by
  funext i
  obtain ⟨b, r, j, rfl⟩ : ∃ (b : Fin 4000000) (r j : Fin 3), i = ix3 b r j := ⟨i 0, i 1, i 2, eq_ix3 i⟩
  rw [stacked_apply]
  unfold val_main_v64
  obtain ⟨k, hk⟩ := r
  interval_cases k
  · exact (Cert.JoinUnit.slabs_apply _ _ b _ j 0 (by show (0 : ℕ) < 3; omega) _ rfl rfl rfl).trans ((slab_apply _ b j).trans
      ((top_apply x0 b j).trans (congrArg _ (by show j.val = 3 * 0 + j.val; omega))))
  · exact (Cert.JoinUnit.slabs_apply _ _ b _ j 1 (by show (1 : ℕ) < 3; omega) _ rfl rfl rfl).trans ((slab_apply _ b j).trans
      ((middle_apply x0 b j).trans (congrArg _ (by show 3 + j.val = 3 * 1 + j.val; omega))))
  · exact (Cert.JoinUnit.slabs_apply _ _ b _ j 2 (by show (2 : ℕ) < 3; omega) _ rfl rfl rfl).trans ((slab_apply _ b j).trans
      ((bottom_apply _ _ _ b j).trans (congrArg _ (by show 6 + j.val = 3 * 2 + j.val; omega))))

end Cert.ReferenceIdeal.Row

end
-- ==== Proof.lean ====
/-
  The exponential map of planar rigid motions, computed two ways.

  Both programs take an array of 4000000 rows `(x, y, ω)` and return, for each row, the 3×3 matrix of the rigid motion it
  generates (`Cert.ExpMap`: with `θ² = ω²`, `θ = √θ²`, `A = sin θ / (θ + ε)`, `B = (1 − cos θ) / (θ² + ε)`,
  `C = (1 − A) / (θ² + ε)`, the rotation block `[1 − Bθ², −Aω; Aω, 1 − Bθ²]`, the translation column
  `((1 − Cθ²) x − Bω y, Bω x + (1 − Cθ²) y)` and the bottom row `(0, 0, 1)`).

  The kernel works on 1000 blocks of 4000 rows: from a block's three columns it computes the nine entries as nine
  columns, joins them side by side, and the blocks tile an array [4000000, 9] that the host reshapes to
  [4000000, 3, 3] (`Cert.KernelIdeal.Whole.run`). The reference computes nine vectors of length 4000000 and stacks them,
  three by three and then the three rows (`Cert.ReferenceIdeal.Row.result_eq`, over the reference's generated run).
  On the extended reals the two do the same operations on the same numbers, entry by entry; the one difference in
  spelling, a negation written `0 − a`, is the law `0 − a = −a`, true at the infinities too. So no finiteness of the
  inputs is used: the precondition is never opened.

  The three frames are the generated ones (the reference's is its generated run with the result dropped), and the
  idealization rewrote nothing, so it has nothing to preserve.
-/
import proofs.«178806_j37065567764675_2_alg».proof.Defs
import proofs.«178806_j37065567764675_2_alg».proof.Proof.Gen.Kernel
import proofs.«178806_j37065567764675_2_alg».proof.Proof.Gen.Kernel.Skeleton
import proofs.«178806_j37065567764675_2_alg».proof.Proof.Gen.Kernel.Launch
import proofs.«178806_j37065567764675_2_alg».proof.Proof.Gen.Kernel.Points
import proofs.«178806_j37065567764675_2_alg».proof.Proof.Gen.Kernel.Frame
import proofs.«178806_j37065567764675_2_alg».proof.Proof.Gen.KernelIdeal
import proofs.«178806_j37065567764675_2_alg».proof.Proof.Gen.KernelIdeal.Skeleton
import proofs.«178806_j37065567764675_2_alg».proof.Proof.Gen.KernelIdeal.Launch
import proofs.«178806_j37065567764675_2_alg».proof.Proof.Gen.KernelIdeal.Points
import proofs.«178806_j37065567764675_2_alg».proof.Proof.Gen.KernelIdeal.Frame
import proofs.«178806_j37065567764675_2_alg».proof.Proof.Gen.ReferenceIdeal
import proofs.«178806_j37065567764675_2_alg».proof.Proof.Gen.ReferenceIdeal.Run
import proofs.«178806_j37065567764675_2_alg».proof.Proof.Gen.ReferenceIdeal.Read
import proofs.«178806_j37065567764675_2_alg».proof.Proof.Gen.Pre_finite_inputs
import proofs.«178806_j37065567764675_2_alg».proof.Proof.KernelWhole
import proofs.«178806_j37065567764675_2_alg».proof.Proof.ReferenceRow
import Idealize.ShloMosaic.Adequacy
import Idealize.ShloMosaic.Init

noncomputable section

namespace Cert.Proof

open Idealize.ShloMosaic Idealize.SL.Sem

/-- The kernel at the word level runs and leaves the rows array unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From rows arrays that agree, both programs end with the matrices of the rows array, `Cert.ExpMap.stacked`: the
    kernel by its blocks and the host's reshape, the reference by its stacking. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Row.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
